-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S50000x128 .f32) (main_v33 : IVec S_ 1) : IVec S_ 1 :=
  let main_v34 : FVec F S50000x128 .f32 := Host.absf main_arg9
  let main_cst_12 : FVec F S_ .f32 := constant S_ .f32 0x7F800000#32
  let main_v35 : FVec F S50000x128 .f32 := broadcastInDim S50000x128 ![] bcast_S_S50000x128 main_cst_12
  let main_v36 : IVec S50000x128 1 := cmpf .olt main_v34 main_v35
  let main_c_13 : IVec S_ 1 := constantI S_ 1 1#1
  let main_v37 : IVec S_ 1 := (fun x v => Host.reduce IntOp.andi x v reducesTo_S50000x128_S_d0_1 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x128 .f32) (main_arg9 : FVec F S50000x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S600000 32) (main_arg2 : IVec S600000 32) (main_arg3 : FVec F S600000 .f32) (main_arg4 : FVec F S128x128 .f32) (main_arg5 : FVec F S128 .f32) (main_arg6 : FVec F S128x128 .f32) (main_arg7 : FVec F S128 .f32) (main_arg8 : FVec F S128x128 .f32) (main_arg9 : FVec F S50000x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S1x128 : Shape := ⟨2, ![1, 128]⟩
abbrev S5000x128 : Shape := ⟨2, ![5000, 128]⟩
abbrev S600000x1 : Shape := ⟨2, ![600000, 1]⟩
abbrev S600000x128 : Shape := ⟨2, ![600000, 128]⟩

abbrev nBuf : Space → Nat
  | .hbm => 76
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S50000x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .i1⟩
  | .hbm, ⟨18, _⟩ => ⟨S_, .f32⟩
  | .hbm, ⟨19, _⟩ => ⟨S_, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S1x128, .f32⟩
  | .hbm, ⟨24, _⟩ => ⟨S1x128, .f32⟩
  | .hbm, ⟨25, _⟩ => ⟨S50000x128, .f32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .f32⟩
  | .hbm, ⟨35, _⟩ => ⟨S600000x1, .f32⟩
  | .hbm, ⟨36, _⟩ => ⟨S600000x128, .f32⟩
  | .hbm, ⟨37, _⟩ => ⟨S600000x128, .f32⟩
  | .hbm, ⟨38, _⟩ => ⟨S_, .f32⟩
  | .hbm, ⟨39, _⟩ => ⟨S50000x128, .f32⟩
  | .hbm, ⟨40, _⟩ => ⟨S600000x1, .i32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S600000x1, .f32⟩
  | .hbm, ⟨53, _⟩ => ⟨S600000x128, .f32⟩
  | .hbm, ⟨54, _⟩ => ⟨S600000x128, .f32⟩
  | .hbm, ⟨55, _⟩ => ⟨S_, .f32⟩
  | .hbm, ⟨56, _⟩ => ⟨S50000x128, .f32⟩
  | .hbm, ⟨57, _⟩ => ⟨S600000x1, .i32⟩
  | .hbm, ⟨58, _⟩ => ⟨S50000x128, .f32⟩
  | .hbm, ⟨59, _⟩ => ⟨S_, .i32⟩
  | .hbm, ⟨60, _⟩ => ⟨S600000, .i32⟩
  | .hbm, ⟨61, _⟩ => ⟨S600000, .i1⟩
  | .hbm, ⟨62, _⟩ => ⟨S_, .i32⟩
  | .hbm, ⟨63, _⟩ => ⟨S600000, .i32⟩
  | .hbm, ⟨64, _⟩ => ⟨S600000, .i32⟩
  | .hbm, ⟨65, _⟩ => ⟨S600000, .i32⟩
  | .hbm, ⟨66, _⟩ => ⟨S600000x1, .i32⟩
  | .hbm, ⟨67, _⟩ => ⟨S600000x128, .f32⟩
  | .hbm, ⟨68, _⟩ => ⟨S600000x1, .f32⟩
  | .hbm, ⟨69, _⟩ => ⟨S600000x128, .f32⟩
  | .hbm, ⟨70, _⟩ => ⟨S600000x128, .f32⟩
  | .hbm, ⟨71, _⟩ => ⟨S_, .f32⟩
  | .hbm, ⟨72, _⟩ => ⟨S50000x128, .f32⟩
  | .hbm, ⟨73, _⟩ => ⟨S600000x1, .i32⟩
  | .hbm, ⟨74, _⟩ => ⟨S50000x128, .f32⟩
  | .hbm, ⟨75, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_6 : Ref sig .tc := ⟨.hbm, 59, rfl⟩
abbrev main_v38 : Ref sig .tc := ⟨.hbm, 60, rfl⟩
abbrev main_v39 : Ref sig .tc := ⟨.hbm, 61, rfl⟩
abbrev main_c_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem4_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  transposes_S128x128_S128x128_1_0 : S128x128.Transposes [1, 0] S128x128
  reducesTo_S128x128_S_d0_1 : S128x128.ReducesTo [0, 1] S_
  h_S_ : 0 < S_.numel
  bcast_S_S128x128 : S_.BroadcastsInDim S128x128 (![] : Fin 0 → Fin S128x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S128x128_S128x128 : S128x128.ShapeCasts S128x128
  dot_S128x128_S128x128_S128x128_1_0_0_1_n_n_wf : DotDims.WF S128x128 S128x128 S128x128 [1] [0] [0] [1] [] []
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S50000x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .i1⟩
  | .hbm, ⟨18, _⟩ => ⟨S_, .f32⟩
  | .hbm, ⟨19, _⟩ => ⟨S_, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S50000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S600000x1, .f32⟩
  | .hbm, ⟨34, _⟩ => ⟨S600000x128, .f32⟩
  | .hbm, ⟨35, _⟩ => ⟨S600000x128, .f32⟩
  | .hbm, ⟨36, _⟩ => ⟨S_, .f32⟩
  | .hbm, ⟨37, _⟩ => ⟨S50000x128, .f32⟩
  | .hbm, ⟨38, _⟩ => ⟨S600000x1, .i32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x128, .f32⟩
  | .hbm, ⟨56, _⟩ => ⟨S600000x1, .f32⟩
  | .hbm, ⟨57, _⟩ => ⟨S600000x128, .f32⟩
  | .hbm, ⟨58, _⟩ => ⟨S600000x128, .f32⟩
  | .hbm, ⟨59, _⟩ => ⟨S_, .f32⟩
  | .hbm, ⟨60, _⟩ => ⟨S50000x128, .f32⟩
  | .hbm, ⟨61, _⟩ => ⟨S600000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S600000, .i32⟩
  | .hbm, ⟨68, _⟩ => ⟨S600000, .i1⟩
  | .hbm, ⟨69, _⟩ => ⟨S_, .i32⟩
  | .hbm, ⟨70, _⟩ => ⟨S600000, .i32⟩
  | .hbm, ⟨71, _⟩ => ⟨S600000, .i32⟩
  | .hbm, ⟨72, _⟩ => ⟨S600000, .i32⟩
  | .hbm, ⟨73, _⟩ => ⟨S600000x1, .i32⟩
  | .hbm, ⟨74, _⟩ => ⟨S600000x128, .f32⟩
  | .hbm, ⟨75, _⟩ => ⟨S600000x1, .f32⟩
  | .hbm, ⟨76, _⟩ => ⟨S600000x128, .f32⟩
  | .hbm, ⟨77, _⟩ => ⟨S600000x128, .f32⟩
  | .hbm, ⟨78, _⟩ => ⟨S_, .f32⟩
  | .hbm, ⟨79, _⟩ => ⟨S50000x128, .f32⟩
  | .hbm, ⟨80, _⟩ => ⟨S600000x1, .i32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | .hbm, ⟨86, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call2_cst : Ref sig .tc := ⟨.hbm, 43, rfl⟩
abbrev main_call2_v0 : Ref sig .tc := ⟨.hbm, 44, rfl⟩
abbrev main_v25 : Ref sig .tc := ⟨.hbm, 45, rfl⟩
abbrev main_v26 : Ref sig .tc := ⟨.hbm, 46, rfl⟩
abbrev main_c_3 : Ref sig .tc := ⟨.hbm, 47, rfl⟩
abbrev main_v27 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_6 : Ref sig .tc := ⟨.hbm, 66, rfl⟩
abbrev main_v43 : Ref sig .tc := ⟨.hbm, 67, rfl⟩
abbrev main_v44 : Ref sig .tc := ⟨.hbm, 68, rfl⟩
abbrev main_c_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_8 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_9 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩

abbrev nD : Nat := 1
abbrev τ : Topo := Topo.v7x

variable {F : FTy → Type} [FloatOps F]

class Facts₀ : Prop where
  transposes_S128x128_S128x128_1_0 : S128x128.Transposes [1, 0] S128x128
  reducesTo_S128x128_S_d0_1 : S128x128.ReducesTo [0, 1] S_
  h_S_ : 0 < S_.numel
  bcast_S_S128x128 : S_.BroadcastsInDim S128x128 (![] : Fin 0 → Fin S128x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S128x128_S128x128_S128x128_1_0_0_1_n_n_wf : DotDims.WF S128x128 S128x128 S128x128 [1] [0] [0] [1] [] []
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KernelRun.lean ====
/-
  The idealized kernel program's run with every buffer named.  Its @main is ten segments: five stretches of host
  operations, the first pallas_call, a stretch, the second pallas_call, a stretch, the third pallas_call.  The buffer
  contents at each boundary are a fold through them from the launch memory; the last boundary's contents are `W10`.
  Every weakly fair execution terminates, nothing faulting, with EVERY unscoped TensorCore buffer at `W10` — in
  particular the result buffer, whose value the other modules compute, and the ten argument buffers, which the fold
  walks back to the launch memory.
-/
import proofs.«175384_j31044023616098_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the ten segments, its last thread state read against the final memory: every unscoped buffer of every
    core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The same run with the result buffer and the ten argument buffers picked out: the result at the last boundary's
    contents, each argument as launched. -/
theorem run_out : θ_run defs (onTc (τ := τ) (main (F := F))) ⟨m, fun _ => 0, ρ⟩ (fun r => ∀ c : Dev nD,
      r.2.mem ((c.tc : Thread nD τ).loc main_v51) = W10 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ (mem_uc main_v51 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)
    (run_all m ρ)

end Cert.KernelIdeal.Hand

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.Tile.lean ====
/-
  The one matrix product every kernel body of this program performs: a [5000,128] tile times a [128,128] matrix into
  the zero accumulator.  Read at the tile index (p, q) it is the sum over k of left (p, k) times right (k, q).
-/
import proofs.«175384_j31044023616098_1_alg».proof.Proof.Gen.KernelIdeal
import proofs.«175384_j31044023616098_1_alg».proof.Proof.LibMatmul
import Idealize.ShloMosaic.Lib.ValueIdx
import Idealize.ShloMosaic.PureOps.Ideal.Laws

noncomputable section

namespace Cert.KernelIdeal.Hand

open Idealize.ShloMosaic Idealize.ShloMosaic.ValueIdx Cert.KernelIdeal

/-- The zero offsets of a whole-buffer access. -/
theorem hz : (![0, 0] : Fin 2 → Nat) = fun _ => 0 := funext fun a => by fin_cases a <;> rfl

/-- The left operand's row at any contraction position is the output's row. -/
theorem tile_lhs_0 (j : S5000x128.Idx) (r : dot_S5000x128_S128x128_S5000x128_1_0_0_1_n_n.contr.Idx) : (dot_S5000x128_S128x128_S5000x128_1_0_0_1_n_n.lhsIdx j r 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- The left operand's column is the contraction coordinate. -/
theorem tile_lhs_1 (j : S5000x128.Idx) (r : dot_S5000x128_S128x128_S5000x128_1_0_0_1_n_n.contr.Idx) : (dot_S5000x128_S128x128_S5000x128_1_0_0_1_n_n.lhsIdx j r 1).val = (r ⟨0, by decide⟩).val :=
  dot_S5000x128_S128x128_S5000x128_1_0_0_1_n_n.lhsIdx_val_of_single rfl j r
/-- The right operand's row is the contraction coordinate. -/
theorem tile_rhs_0 (j : S5000x128.Idx) (r : dot_S5000x128_S128x128_S5000x128_1_0_0_1_n_n.contr.Idx) : (dot_S5000x128_S128x128_S5000x128_1_0_0_1_n_n.rhsIdx j r 0).val = (r ⟨0, by decide⟩).val :=
  dot_S5000x128_S128x128_S5000x128_1_0_0_1_n_n.rhsIdx_val_of_single rfl j r
/-- The right operand's column at any contraction position is the output's column. -/
theorem tile_rhs_1 (j : S5000x128.Idx) (r : dot_S5000x128_S128x128_S5000x128_1_0_0_1_n_n.contr.Idx) : (dot_S5000x128_S128x128_S5000x128_1_0_0_1_n_n.rhsIdx j r 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The left operand's index at output (p, q) and contraction position k is (p, k). -/
theorem tile_lhs (p : Fin 5000) (q : Fin 128) (k : Fin 128)
    (r : dot_S5000x128_S128x128_S5000x128_1_0_0_1_n_n.contr.Idx) (hr : (r ⟨0, by decide⟩ : ℕ) = k.val) :
    dot_S5000x128_S128x128_S5000x128_1_0_0_1_n_n.lhsIdx (ix2 p q) r = ix2 p k := by
  funext a; apply Fin.ext
  match a with
  | ⟨0, _⟩ => exact tile_lhs_0 (ix2 p q) r
  | ⟨1, _⟩ => exact (tile_lhs_1 (ix2 p q) r).trans hr

/-- The right operand's index at output (p, q) and contraction position k is (k, q). -/
theorem tile_rhs (p : Fin 5000) (q : Fin 128) (k : Fin 128)
    (r : dot_S5000x128_S128x128_S5000x128_1_0_0_1_n_n.contr.Idx) (hr : (r ⟨0, by decide⟩ : ℕ) = k.val) :
    dot_S5000x128_S128x128_S5000x128_1_0_0_1_n_n.rhsIdx (ix2 p q) r = ix2 k q := by
  funext a; apply Fin.ext
  match a with
  | ⟨0, _⟩ => exact (tile_rhs_0 (ix2 p q) r).trans hr
  | ⟨1, _⟩ => exact tile_rhs_1 (ix2 p q) r

/-- The tile product at (p, q): Σ_k a (p, k) · b (k, q). -/
theorem tile_matmul {φ₁ φ₂ : FTy} (a : FVec Ideal S5000x128 φ₁) (b : FVec Ideal S128x128 φ₂) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) :=
  Cert.LibMatmul.matmul_zero_sum1 dot_S5000x128_S128x128_S5000x128_1_0_0_1_n_n none 128 rfl rfl a b (ix2 p q)
    (fun k => ix2 p k) (fun k => ix2 k q) (fun r k hr => tile_lhs p q k r hr) (fun r k hr => tile_rhs p q k r hr)

end Cert.KernelIdeal.Hand

end
-- ==== Proof.Region0.lean ====
/-
  The first pallas_call: x · W1, one [5000,128] row block per grid point (ten points), the [128,128] weight whole at
  every point.  Block t of the output is rows 5000·t … 5000·t + 4999; entry (r, j) of the output is Σ_k x (r, k) · W1 (k, j),
  which is the host's dot_general of the two arrays read at (r, j).  The ten blocks tile the [50000,128] array, so the
  array after the region IS that dot_general of the arrays the region found.
-/
import proofs.«175384_j31044023616098_1_alg».proof.Proof.Gen.KernelIdeal.Frame
import proofs.«175384_j31044023616098_1_alg».proof.Proof.Gen.ReferenceIdeal.Read
import proofs.«175384_j31044023616098_1_alg».proof.Proof.Tile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.ReferenceIdeal.Read

variable (V : (c : Dev nD) → (b : Ref sig .tc) → Buf (Elt Ideal) ((c : Thread nD τ).loc b))

/-- What the region's output array holds at the end, as a function of the arrays it found at entry. -/
abbrev G0 (c : Dev nD) : S50000x128.Idx → EReal :=
  val_main_v8 (F := Ideal) (V c main_arg0) (V c main_arg4)

/-- The printed index maps over the grid: row-block windows sit at block (t, 0), the weight window at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One tile of the product, over variables: if the left tile is rows T·5000 … of X and the right tile is W, the body's
    payload at (p, q) is the whole product at row T·5000 + p, column q. -/
theorem tile0 (X : S50000x128.Idx → EReal) (W : S128x128.Idx → EReal)
    (x0 : Vec Ideal S5000x128 .f32) (x1 : Vec Ideal S128x128 .f32) (T : ℕ)
    (hx0 : ∀ (p : Fin 5000) (k : Fin 128) (i : S50000x128.Idx), (i 0).val = T * 5000 + p.val → (i 1).val = k.val → x0 (ix2 p k) = X i)
    (hx1 : ∀ (k : Fin 128) (q : Fin 128) (i : S128x128.Idx), (i 0).val = k.val → (i 1).val = q.val → x1 (ix2 k q) = W i)
    (p : Fin 5000) (q : Fin 128) (i : S50000x128.Idx) (hi0 : (i 0).val = T * 5000 + p.val) (hi1 : (i 1).val = q.val) :
    k0_pay1 x0 x1 (ix2 p q) = val_main_v8 (F := Ideal) X W i := by
  unfold k0_pay1
  refine (tile_matmul _ _ p q).trans ?_
  rw [val_main_v8_apply]
  refine Finset.sum_congr rfl fun k _ => ?_
  show x0 (ix2 p k) * x1 (ix2 k q) = _
  rw [hx0 p k (lidx_main_v8 i k) hi0 rfl, hx1 k q (ridx_main_v8 i k) rfl hi1]

/-- The left window's block at point t is rows 5000·t … of the array the region found. -/
theorem rd0_0 (c : Dev nD) (t : Fin cfg0.N) (p : Fin 5000) (k : Fin 128) (i : S50000x128.Idx)
    (h0 : (i 0).val = t.val * 5000 + p.val) (h1 : (i 1).val = k.val) :
    (iblk0 V c 0 t : Vec Ideal S5000x128 .f32) (ix2 p k) = V c main_arg0 i := by
  obtain ⟨e0, e1, -⟩ := idx0 t
  unfold iblk0
  rw [View.read_apply]
  show V c main_arg0 (((cfg0.win 0).blk t).view.emb (ix2 p k)) = V c main_arg0 i
  refine congrArg (V c main_arg0) (funext fun a => Fin.ext ?_)
  match a with
  | ⟨0, _⟩ => show win0_0.index t (0 : Fin 2) * 5000 + 1 * p.val = (i 0).val; omega
  | ⟨1, _⟩ => show win0_0.index t (1 : Fin 2) * 128 + 1 * k.val = (i 1).val; omega

/-- The weight window's block at every point is the whole weight array. -/
theorem rd0_1 (c : Dev nD) (t : Fin cfg0.N) (k : Fin 128) (q : Fin 128) (i : S128x128.Idx)
    (h0 : (i 0).val = k.val) (h1 : (i 1).val = q.val) :
    (iblk0 V c 1 t : Vec Ideal S128x128 .f32) (ix2 k q) = V c main_arg4 i := by
  obtain ⟨-, -, e2, e3, -⟩ := idx0 t
  unfold iblk0
  rw [View.read_apply]
  show V c main_arg4 (((cfg0.win 1).blk t).view.emb (ix2 k q)) = V c main_arg4 i
  refine congrArg (V c main_arg4) (funext fun a => Fin.ext ?_)
  match a with
  | ⟨0, _⟩ => show win0_1.index t (0 : Fin 2) * 128 + 1 * k.val = (i 0).val; omega
  | ⟨1, _⟩ => show win0_1.index t (1 : Fin 2) * 128 + 1 * q.val = (i 1).val; omega

/-- What point t writes back is block t of the product. -/
theorem flushed0 (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx0 t
  funext j
  obtain ⟨p, q, rfl⟩ : ∃ (p : Fin 5000) (q : Fin 128), j = ix2 p q := ⟨j 0, j 1, eq_ix2 j⟩
  rw [View.read_apply]
  show k0_pay1 (iblk0 V c 0 t) (iblk0 V c 1 t) (ix2 p q) = val_main_v8 (F := Ideal) (V c main_arg0) (V c main_arg4) (((cfg0.win 2).blk t).view.emb (ix2 p q))
  refine tile0 (V c main_arg0) (V c main_arg4) _ _ t.val (fun p k i h0 h1 => rd0_0 V c t p k i h0 h1)
    (fun k q i h0 h1 => rd0_1 V c t k q i h0 h1) p q _ ?_ ?_
  · show win0_2.index t (0 : Fin 2) * 5000 + 1 * p.val = t.val * 5000 + p.val; omega
  · show win0_2.index t (1 : Fin 2) * 128 + 1 * q.val = q.val; omega

/-- An index of the output array is in point t's block iff each coordinate is in the block's range. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v10).slice (win0_2.rect t)).set ↔ _
  rw [View.set_slice_whole, Rect.mem_set_unit]
  exact Iff.rfl

/-- Row r of the output lies in the block of point r / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, e4, e5⟩ := idx0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- The output array after the region: the product of the arrays the region found. -/
theorem final0 (c : Dev nD) : (dat0 V c).arrAt 2 cfg0.N = G0 V c :=
  (dat0 V c).arrAt_eq_of_cover 2 (G0 V c) (fun t _ => flushed0 V c t) cover0

end Cert.KernelIdeal.Hand

end
-- ==== Proof.Region1.lean ====
/-
  The second pallas_call: relu (s + b) · W2, one [5000,128] row block of s per grid point, the [1,128] bias row and the
  [128,128] weight whole at every point.  Entry (r, j) of the output is Σ_k max (s (r, k) + b (0, k), 0) · W2 (k, j).
  The ten row blocks tile the [50000,128] output, so that formula holds of the whole array after the region.
-/
import proofs.«175384_j31044023616098_1_alg».proof.Proof.Gen.KernelIdeal.Frame
import proofs.«175384_j31044023616098_1_alg».proof.Proof.Gen.ReferenceIdeal.Read
import proofs.«175384_j31044023616098_1_alg».proof.Proof.Tile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.ReferenceIdeal.Read

variable (V : (c : Dev nD) → (b : Ref sig .tc) → Buf (Elt Ideal) ((c : Thread nD τ).loc b))

/-- The region's function of three whole arrays — the row-block operand s, the bias row b, the weight W —:
    entry (r, j) is Σ_k max (s (r, k) + b (0, k), 0) · W (k, j). -/
def g1 (X : S50000x128.Idx → EReal) (B : S1x128.Idx → EReal) (W : S128x128.Idx → EReal) : S50000x128.Idx → EReal := fun i =>
  ∑ k : Fin 128, max (X (lidx_main_v26 i k) + B (ix2 (0 : Fin 1) k)) (FloatOps.ofBits (F := Ideal) .f32 0x00000000#32) * W (ridx_main_v26 i k)

/-- What the region's output array holds at the end: that function of the arrays it found at entry. -/
abbrev G1 (c : Dev nD) : S50000x128.Idx → EReal := g1 (V c main_v23) (V c main_v8) (V c main_arg6)

/-- The printed index maps over the grid. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The left factor of the body's product at (p, k): the bias row added to the tile, then the maximum with zero (the
    casts between equal shapes and the change of float format are the identity). -/
theorem relu_row (x0 : Vec Ideal S5000x128 .f32) (x1 : Vec Ideal S1x128 .f32)
    (h1 : S5000x128.ShapeCasts S5000x128) (h2 : S1x128.ShapeCasts S1x128) (h3 : S1x128.Broadcasts S5000x128)
    (hlt : FTy.bits .bf16 < FTy.bits .f32) (p : Fin 5000) (k : Fin 128) :
    (truncf .bf16 (maximumf (addf (shapeCast S5000x128 x0 h1) (broadcastTo S5000x128 (shapeCast S1x128 x1 h2) h3))
        (broadcast S5000x128 (Scalar.ofBits (F := Ideal) .f32 0x00000000#32))) hlt) (ix2 p k)
      = max (x0 (ix2 p k) + x1 (ix2 (0 : Fin 1) k)) (FloatOps.ofBits (F := Ideal) .f32 0x00000000#32) := by
  show max (shapeCast S5000x128 x0 h1 (ix2 p k) + broadcastTo S5000x128 (shapeCast S1x128 x1 h2) h3 (ix2 p k)) _ = _
  rw [shapeCast_self, shapeCast_self, broadcastTo_1b_ab_apply]
  rfl

/-- One tile of the region's product, over variables. -/
theorem tile1 (X : S50000x128.Idx → EReal) (B : S1x128.Idx → EReal) (W : S128x128.Idx → EReal)
    (x0 : Vec Ideal S5000x128 .f32) (x1 : Vec Ideal S1x128 .f32) (x2 : Vec Ideal S128x128 .f32) (T : ℕ)
    (hx0 : ∀ (p : Fin 5000) (k : Fin 128) (i : S50000x128.Idx), (i 0).val = T * 5000 + p.val → (i 1).val = k.val → x0 (ix2 p k) = X i)
    (hx1 : ∀ (k : Fin 128), x1 (ix2 (0 : Fin 1) k) = B (ix2 (0 : Fin 1) k))
    (hx2 : ∀ (k : Fin 128) (q : Fin 128) (i : S128x128.Idx), (i 0).val = k.val → (i 1).val = q.val → x2 (ix2 k q) = W i)
    (p : Fin 5000) (q : Fin 128) (i : S50000x128.Idx) (hi0 : (i 0).val = T * 5000 + p.val) (hi1 : (i 1).val = q.val) :
    k1_pay1 x0 x1 x2 (ix2 p q) = g1 X B W i := by
  unfold k1_pay1 g1
  refine (tile_matmul _ _ p q).trans ?_
  refine Finset.sum_congr rfl fun k _ => ?_
  refine (congrArg₂ (· * ·) (relu_row x0 x1 _ _ _ _ p k) (rfl : _ = x2 (ix2 k q))).trans ?_
  rw [hx0 p k (lidx_main_v26 i k) hi0 rfl, hx1 k, hx2 k q (ridx_main_v26 i k) rfl hi1]

/-- The row-block window's block at point t is rows 5000·t … of the array the region found. -/
theorem rd1_0 (c : Dev nD) (t : Fin cfg1.N) (p : Fin 5000) (k : Fin 128) (i : S50000x128.Idx)
    (h0 : (i 0).val = t.val * 5000 + p.val) (h1 : (i 1).val = k.val) :
    (iblk1 V c 0 t : Vec Ideal S5000x128 .f32) (ix2 p k) = V c main_v23 i := by
  obtain ⟨e0, e1, -⟩ := idx1 t
  unfold iblk1
  rw [View.read_apply]
  show V c main_v23 (((cfg1.win 0).blk t).view.emb (ix2 p k)) = V c main_v23 i
  refine congrArg (V c main_v23) (funext fun a => Fin.ext ?_)
  match a with
  | ⟨0, _⟩ => show win1_0.index t (0 : Fin 2) * 5000 + 1 * p.val = (i 0).val; omega
  | ⟨1, _⟩ => show win1_0.index t (1 : Fin 2) * 128 + 1 * k.val = (i 1).val; omega

/-- The bias window's block at every point is the whole bias row. -/
theorem rd1_1 (c : Dev nD) (t : Fin cfg1.N) (k : Fin 128) :
    (iblk1 V c 1 t : Vec Ideal S1x128 .f32) (ix2 (0 : Fin 1) k) = V c main_v8 (ix2 (0 : Fin 1) k) := by
  obtain ⟨-, -, e2, e3, -⟩ := idx1 t
  unfold iblk1
  rw [View.read_apply]
  show V c main_v8 (((cfg1.win 1).blk t).view.emb (ix2 (0 : Fin 1) k)) = V c main_v8 (ix2 (0 : Fin 1) k)
  refine congrArg (V c main_v8) (funext fun a => Fin.ext ?_)
  match a with
  | ⟨0, _⟩ => show win1_1.index t (0 : Fin 2) * 1 + 1 * 0 = 0; omega
  | ⟨1, _⟩ => show win1_1.index t (1 : Fin 2) * 128 + 1 * k.val = k.val; omega

/-- The weight window's block at every point is the whole weight array. -/
theorem rd1_2 (c : Dev nD) (t : Fin cfg1.N) (k : Fin 128) (q : Fin 128) (i : S128x128.Idx)
    (h0 : (i 0).val = k.val) (h1 : (i 1).val = q.val) :
    (iblk1 V c 2 t : Vec Ideal S128x128 .f32) (ix2 k q) = V c main_arg6 i := by
  obtain ⟨-, -, -, -, e4, e5, -⟩ := idx1 t
  unfold iblk1
  rw [View.read_apply]
  show V c main_arg6 (((cfg1.win 2).blk t).view.emb (ix2 k q)) = V c main_arg6 i
  refine congrArg (V c main_arg6) (funext fun a => Fin.ext ?_)
  match a with
  | ⟨0, _⟩ => show win1_2.index t (0 : Fin 2) * 128 + 1 * k.val = (i 0).val; omega
  | ⟨1, _⟩ => show win1_2.index t (1 : Fin 2) * 128 + 1 * q.val = (i 1).val; omega

/-- What point t writes back is block t of the region's function. -/
theorem flushed1 (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  obtain ⟨-, -, -, -, -, -, e6, e7⟩ := idx1 t
  funext j
  obtain ⟨p, q, rfl⟩ : ∃ (p : Fin 5000) (q : Fin 128), j = ix2 p q := ⟨j 0, j 1, eq_ix2 j⟩
  rw [View.read_apply]
  show k1_pay1 (iblk1 V c 0 t) (iblk1 V c 1 t) (iblk1 V c 2 t) (ix2 p q) = g1 (V c main_v23) (V c main_v8) (V c main_arg6) (((cfg1.win 3).blk t).view.emb (ix2 p q))
  refine tile1 (V c main_v23) (V c main_v8) (V c main_arg6) _ _ _ t.val (fun p k i h0 h1 => rd1_0 V c t p k i h0 h1)
    (fun k => rd1_1 V c t k) (fun k q i h0 h1 => rd1_2 V c t k q i h0 h1) p q _ ?_ ?_
  · show win1_3.index t (0 : Fin 2) * 5000 + 1 * p.val = t.val * 5000 + p.val; omega
  · show win1_3.index t (1 : Fin 2) * 128 + 1 * q.val = q.val; omega

/-- An index of the output array is in point t's block iff each coordinate is in the block's range. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v24).slice (win1_3.rect t)).set ↔ _
  rw [View.set_slice_whole, Rect.mem_set_unit]
  exact Iff.rfl

/-- Row r of the output lies in the block of point r / 5000. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, e6, e7⟩ := idx1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val ∧ (i 1).val < win1_3.index ⟨(i 0).val / 5000, ht⟩ (1 : Fin 2) * 128 + 128
    rw [e7]; omega

/-- The output array after the region. -/
theorem final1 (c : Dev nD) : (dat1 V c).arrAt 3 cfg1.N = G1 V c :=
  (dat1 V c).arrAt_eq_of_cover 3 (G1 V c) (fun t _ => flushed1 V c t) cover1

end Cert.KernelIdeal.Hand

end
-- ==== Proof.Region2.lean ====
/-
  The third pallas_call: c · (a · W) + (s + b), one [5000,128] row block of a and of s per grid point, the [1,128] bias
  row and the [128,128] matrix W whole at every point; c is the literal 0x3F733333.  Entry (r, j) of the output is
  c · Σ_k a (r, k) · W (k, j) + (s (r, j) + b (0, j)).  The ten row blocks tile the [50000,128] output, so that formula
  holds of the whole array after the region.
-/
import proofs.«175384_j31044023616098_1_alg».proof.Proof.Gen.KernelIdeal.Frame
import proofs.«175384_j31044023616098_1_alg».proof.Proof.Gen.ReferenceIdeal.Read
import proofs.«175384_j31044023616098_1_alg».proof.Proof.Tile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.ReferenceIdeal.Read

variable (V : (c : Dev nD) → (b : Ref sig .tc) → Buf (Elt Ideal) ((c : Thread nD τ).loc b))

/-- The region's function of four whole arrays — a, s, the bias row b, the matrix W —:
    entry (r, j) is c · Σ_k a (r, k) · W (k, j) + (s (r, j) + b (0, j)). -/
def g2 (A : S50000x128.Idx → EReal) (S : S50000x128.Idx → EReal) (B : S1x128.Idx → EReal) (W : S128x128.Idx → EReal) :
    S50000x128.Idx → EReal := fun i =>
  FloatOps.ofBits (F := Ideal) .f32 0x3F733333#32 * (∑ k : Fin 128, A (lidx_main_v56 i k) * W (ridx_main_v56 i k))
    + (S i + B (ix2 (0 : Fin 1) (⟨(i 1).val, (i 1).isLt⟩ : Fin 128)))

/-- What the region's output array holds at the end: that function of the arrays it found at entry. -/
abbrev G2 (c : Dev nD) : S50000x128.Idx → EReal := g2 (V c main_v50) (V c main_v37) (V c main_v9) (V c main_v7)

/-- The printed index maps over the grid. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The body's stored value at the tile index (p, q), over variables: the scaled tile product plus the tile of s plus
    the bias row (the casts between equal shapes and the change of float format are the identity). -/
theorem combine_at (v0 : Vec Ideal S5000x128 .f32) (v2 : Vec Ideal S1x128 .f32) (v6 : Vec Ideal S5000x128 .f32)
    (v9 : Vec Ideal S128x128 .f32) (p : Fin 5000) (q : Fin 128) :
    k2_pay1 v0 v2 v6 v9 (ix2 p q) = FloatOps.ofBits (F := Ideal) .f32 0x3F733333#32 * (∑ k : Fin 128, v6 (ix2 p k) * v9 (ix2 k q))
      + (v0 (ix2 p q) + v2 (ix2 (0 : Fin 1) q)) := by
  unfold k2_pay1
  show (Scalar.ofBits (F := Ideal) .f32 0x3F733333#32 : EReal)
        * (matmul dot_S5000x128_S128x128_S5000x128_1_0_0_1_n_n none (truncf .bf16 (shapeCast S5000x128 v6 shapeCasts_S5000x128_S5000x128) bitsLt_bf16_f32)
            (truncf .bf16 (shapeCast S128x128 v9 shapeCasts_S128x128_S128x128) bitsLt_bf16_f32) (constant (F := Ideal) S5000x128 .f32 0x00000000#32) (ix2 p q))
      + (shapeCast S5000x128 v0 shapeCasts_S5000x128_S5000x128 (ix2 p q)
          + broadcastTo S5000x128 (shapeCast S1x128 v2 shapeCasts_S1x128_S1x128) broadcasts_S1x128_S5000x128 (ix2 p q)) = _
  rw [tile_matmul, shapeCast_self, shapeCast_self, shapeCast_self, shapeCast_self, broadcastTo_1b_ab_apply]
  rfl

/-- One tile of the region's function, over variables. -/
theorem tile2 (A : S50000x128.Idx → EReal) (S : S50000x128.Idx → EReal) (B : S1x128.Idx → EReal) (W : S128x128.Idx → EReal)
    (x0 x1 : Vec Ideal S5000x128 .f32) (x2 : Vec Ideal S1x128 .f32) (x3 : Vec Ideal S128x128 .f32) (T : ℕ)
    (hx0 : ∀ (p : Fin 5000) (k : Fin 128) (i : S50000x128.Idx), (i 0).val = T * 5000 + p.val → (i 1).val = k.val → x0 (ix2 p k) = A i)
    (hx1 : ∀ (p : Fin 5000) (k : Fin 128) (i : S50000x128.Idx), (i 0).val = T * 5000 + p.val → (i 1).val = k.val → x1 (ix2 p k) = S i)
    (hx2 : ∀ (k : Fin 128), x2 (ix2 (0 : Fin 1) k) = B (ix2 (0 : Fin 1) k))
    (hx3 : ∀ (k : Fin 128) (q : Fin 128) (i : S128x128.Idx), (i 0).val = k.val → (i 1).val = q.val → x3 (ix2 k q) = W i)
    (p : Fin 5000) (q : Fin 128) (i : S50000x128.Idx) (hi0 : (i 0).val = T * 5000 + p.val) (hi1 : (i 1).val = q.val) :
    k2_pay1 x1 x2 x0 x3 (ix2 p q) = g2 A S B W i := by
  unfold g2
  rw [combine_at, hx1 p q i hi0 hi1, hx2 q]
  have hq : q = (⟨(i 1).val, (i 1).isLt⟩ : Fin 128) := Fin.ext hi1.symm
  rw [← hq]
  refine congrArg₂ (· + ·) (congrArg _ (Finset.sum_congr rfl fun k _ => ?_)) rfl
  rw [hx0 p k (lidx_main_v56 i k) hi0 rfl, hx3 k q (ridx_main_v56 i k) rfl hi1]

/-- A row-block window's block at point t is rows 5000·t … of its array. -/
theorem rd2_0 (c : Dev nD) (t : Fin cfg2.N) (p : Fin 5000) (k : Fin 128) (i : S50000x128.Idx)
    (h0 : (i 0).val = t.val * 5000 + p.val) (h1 : (i 1).val = k.val) :
    (iblk2 V c 0 t : Vec Ideal S5000x128 .f32) (ix2 p k) = V c main_v50 i := by
  obtain ⟨e0, e1, -⟩ := idx2 t
  unfold iblk2
  rw [View.read_apply]
  show V c main_v50 (((cfg2.win 0).blk t).view.emb (ix2 p k)) = V c main_v50 i
  refine congrArg (V c main_v50) (funext fun a => Fin.ext ?_)
  match a with
  | ⟨0, _⟩ => show win2_0.index t (0 : Fin 2) * 5000 + 1 * p.val = (i 0).val; omega
  | ⟨1, _⟩ => show win2_0.index t (1 : Fin 2) * 128 + 1 * k.val = (i 1).val; omega

theorem rd2_1 (c : Dev nD) (t : Fin cfg2.N) (p : Fin 5000) (k : Fin 128) (i : S50000x128.Idx)
    (h0 : (i 0).val = t.val * 5000 + p.val) (h1 : (i 1).val = k.val) :
    (iblk2 V c 1 t : Vec Ideal S5000x128 .f32) (ix2 p k) = V c main_v37 i := by
  obtain ⟨-, -, e2, e3, -⟩ := idx2 t
  unfold iblk2
  rw [View.read_apply]
  show V c main_v37 (((cfg2.win 1).blk t).view.emb (ix2 p k)) = V c main_v37 i
  refine congrArg (V c main_v37) (funext fun a => Fin.ext ?_)
  match a with
  | ⟨0, _⟩ => show win2_1.index t (0 : Fin 2) * 5000 + 1 * p.val = (i 0).val; omega
  | ⟨1, _⟩ => show win2_1.index t (1 : Fin 2) * 128 + 1 * k.val = (i 1).val; omega

/-- The bias window's block at every point is the whole bias row. -/
theorem rd2_2 (c : Dev nD) (t : Fin cfg2.N) (k : Fin 128) :
    (iblk2 V c 2 t : Vec Ideal S1x128 .f32) (ix2 (0 : Fin 1) k) = V c main_v9 (ix2 (0 : Fin 1) k) := by
  obtain ⟨-, -, -, -, e4, e5, -⟩ := idx2 t
  unfold iblk2
  rw [View.read_apply]
  show V c main_v9 (((cfg2.win 2).blk t).view.emb (ix2 (0 : Fin 1) k)) = V c main_v9 (ix2 (0 : Fin 1) k)
  refine congrArg (V c main_v9) (funext fun a => Fin.ext ?_)
  match a with
  | ⟨0, _⟩ => show win2_2.index t (0 : Fin 2) * 1 + 1 * 0 = 0; omega
  | ⟨1, _⟩ => show win2_2.index t (1 : Fin 2) * 128 + 1 * k.val = k.val; omega

/-- The matrix window's block at every point is the whole matrix. -/
theorem rd2_3 (c : Dev nD) (t : Fin cfg2.N) (k : Fin 128) (q : Fin 128) (i : S128x128.Idx)
    (h0 : (i 0).val = k.val) (h1 : (i 1).val = q.val) :
    (iblk2 V c 3 t : Vec Ideal S128x128 .f32) (ix2 k q) = V c main_v7 i := by
  obtain ⟨-, -, -, -, -, -, e6, e7, -⟩ := idx2 t
  unfold iblk2
  rw [View.read_apply]
  show V c main_v7 (((cfg2.win 3).blk t).view.emb (ix2 k q)) = V c main_v7 i
  refine congrArg (V c main_v7) (funext fun a => Fin.ext ?_)
  match a with
  | ⟨0, _⟩ => show win2_3.index t (0 : Fin 2) * 128 + 1 * k.val = (i 0).val; omega
  | ⟨1, _⟩ => show win2_3.index t (1 : Fin 2) * 128 + 1 * q.val = (i 1).val; omega

/-- What point t writes back is block t of the region's function. -/
theorem flushed2 (c : Dev nD) (t : Fin cfg2.N) :
    (dat2 V c).flushed 4 t = ((cfg2.win 4).blk t).view.read (Elt Ideal) (G2 V c) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz, View.ld_unit_zero (S := S1x128) hz]
  obtain ⟨-, -, -, -, -, -, -, -, e8, e9⟩ := idx2 t
  funext j
  obtain ⟨p, q, rfl⟩ : ∃ (p : Fin 5000) (q : Fin 128), j = ix2 p q := ⟨j 0, j 1, eq_ix2 j⟩
  rw [View.read_apply]
  show k2_pay1 (iblk2 V c 1 t) (iblk2 V c 2 t) (iblk2 V c 0 t) (iblk2 V c 3 t) (ix2 p q) = g2 (V c main_v50) (V c main_v37) (V c main_v9) (V c main_v7) (((cfg2.win 4).blk t).view.emb (ix2 p q))
  refine tile2 (V c main_v50) (V c main_v37) (V c main_v9) (V c main_v7) _ _ _ _ t.val (fun p k i h0 h1 => rd2_0 V c t p k i h0 h1)
    (fun p k i h0 h1 => rd2_1 V c t p k i h0 h1) (fun k => rd2_2 V c t k) (fun k q i h0 h1 => rd2_3 V c t k q i h0 h1) p q _ ?_ ?_
  · show win2_4.index t (0 : Fin 2) * 5000 + 1 * p.val = t.val * 5000 + p.val; omega
  · show win2_4.index t (1 : Fin 2) * 128 + 1 * q.val = q.val; omega

/-- An index of the output array is in point t's block iff each coordinate is in the block's range. -/
theorem mem_blk2 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v51).slice (win2_4.rect t)).set ↔ _
  rw [View.set_slice_whole, Rect.mem_set_unit]
  exact Iff.rfl

/-- Row r of the output lies in the block of point r / 5000. -/
theorem cover2 (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨-, -, -, -, -, -, -, -, e8, e9⟩ := idx2 ⟨(i 0).val / 5000, ht⟩
  refine ⟨⟨(i 0).val / 5000, ht⟩, flush2_4 _, ?_⟩
  rw [mem_blk2]
  intro a
  match a with
  | ⟨0, _⟩ =>
    show win2_4.index ⟨(i 0).val / 5000, ht⟩ (0 : Fin 2) * 5000 ≤ (i 0).val ∧ (i 0).val < win2_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win2_4.index ⟨(i 0).val / 5000, ht⟩ (1 : Fin 2) * 128 ≤ (i 1).val ∧ (i 1).val < win2_4.index ⟨(i 0).val / 5000, ht⟩ (1 : Fin 2) * 128 + 128
    rw [e9]; omega

/-- The output array after the region. -/
theorem final2 (c : Dev nD) : (dat2 V c).arrAt 4 cfg2.N = G2 V c :=
  (dat2 V c).arrAt_eq_of_cover 4 (G2 V c) (fun t _ => flushed2 V c t) cover2

end Cert.KernelIdeal.Hand

end
-- ==== Proof.Bridge.lean ====
/-
  The two fused regions' functions are the reference's own stages.  With s the reference's first aggregated array
  and b1 its first bias, Σ_k max (s (r, k) + b1 (k), 0) · W2 (k, j) is the reference's relu (s + b1) · W2: the same sum,
  the bias reached through its [1,128] row instead of two broadcasts.  With a the aggregated embedding, W the projected
  matrix, s' the second aggregated array and b2 the second bias, c · Σ_k a (r, k) · W (k, j) + (s' (r, j) + b2 (j)) is the
  reference's c · (a · W) + (s' + b2), operation by operation in the same order — so no law of arithmetic beyond
  reading both sides at an index is used, and nothing is asked of the inputs.
-/
import proofs.«175384_j31044023616098_1_alg».proof.Proof.Region1
import proofs.«175384_j31044023616098_1_alg».proof.Proof.Region2

set_option maxRecDepth 16384

noncomputable section

namespace Cert.KernelIdeal.Hand

open Idealize.ShloMosaic Idealize.ShloMosaic.ValueIdx
open Cert.KernelIdeal Cert.ReferenceIdeal.Read

variable (x0 : S50000x128.Idx → EReal) (x1 x2 : IVec S600000 32) (x3 : S600000.Idx → EReal) (x4 : S128x128.Idx → EReal)
  (x5 : S128.Idx → EReal) (x6 : S128x128.Idx → EReal) (x7 : S128.Idx → EReal) (x8 : S128x128.Idx → EReal) (x9 : S50000x128.Idx → EReal)

/-- The second region's function at the reference's first aggregated array, a [1,128] row holding the first bias, and
    the second weight is the reference's second product. -/
theorem g1_eq (X : S50000x128.Idx → EReal) (B : S1x128.Idx → EReal)
    (hX : X = val_main_v21 (F := Ideal) x0 x1 x2 x3 x4) (hB : ∀ k : Fin 128, B (ix2 (0 : Fin 1) k) = x5 (ix1 k)) :
    g1 X B x6 = val_main_v26 (F := Ideal) x0 x1 x2 x3 x4 x5 x6 := by
  subst hX
  funext i
  unfold g1
  rw [val_main_v26_apply]
  refine Finset.sum_congr rfl fun k _ => ?_
  rw [val_main_v25_apply, val_main_v24_apply, val_main_call2_v0_apply, val_main_call2_cst_apply, val_main_v23_apply,
    val_main_v22_apply, hB]
  have e : (ix1 k : S128.Idx) = idx_main_v22 (idx_main_v23 (lidx_main_v26 i k)) :=
    funext fun a => match a with | ⟨0, _⟩ => rfl
  rw [e]
  rfl

/-- The third region's function at the reference's aggregated embedding, its second aggregated array, a [1,128] row
    holding the second bias, and the projected matrix is the reference's result. -/
theorem g2_eq (A S : S50000x128.Idx → EReal) (B : S1x128.Idx → EReal) (W : S128x128.Idx → EReal)
    (hA : A = val_main_v55 (F := Ideal) x1 x2 x3 x9) (hS : S = val_main_v39 (F := Ideal) x0 x1 x2 x3 x4 x5 x6)
    (hB : ∀ k : Fin 128, B (ix2 (0 : Fin 1) k) = x7 (ix1 k)) (hW : W = val_main_v7 (F := Ideal) x8) :
    g2 A S B W = val_main_v59 (F := Ideal) x0 x1 x2 x3 x4 x5 x6 x7 x8 x9 := by
  subst hA hS hW
  funext i
  unfold g2
  rw [val_main_v59_apply, val_main_v58_apply, val_main_v57_apply, val_main_cst_9_apply, val_main_v56_apply,
    val_main_v42_apply, val_main_v41_apply, val_main_v40_apply, hB]
  have e : (ix1 (⟨(i 1).val, (i 1).isLt⟩ : Fin 128) : S128.Idx) = idx_main_v40 (idx_main_v41 i) :=
    funext fun a => match a with | ⟨0, _⟩ => rfl
  rw [e]
  rfl

end Cert.KernelIdeal.Hand

end
-- ==== Proof.Chain.lean ====
/-
  The contents of the idealized kernel program's buffers at each boundary of its run, read back to the launch memory
  and identified with the reference's stages.  Before the first pallas_call the host has computed the projected matrix
  W from F and laid the two biases out as [1,128] rows.  The first pallas_call leaves x · W1, the reference's first
  product.  The host's gather, scaling and scatter-add of it are the reference's own operations on that product: the
  reference's first aggregated array.  The second pallas_call leaves the reference's second product (the module that
  identifies the fused regions with the reference's stages); its aggregation and the embedding's are again the
  reference's own; and the third pallas_call leaves the reference's result.
-/
import proofs.«175384_j31044023616098_1_alg».proof.Proof.Region0
import proofs.«175384_j31044023616098_1_alg».proof.Proof.Bridge

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen Cert.ReferenceIdeal.Read

variable (m : (ℓ : Loc nD τ sig) → Buf (Elt Ideal) ℓ) (ρ : Dev nD → PrngReg) (c : Dev nD)

/-- The fold through the five host stretches before the first pallas_call, at one buffer. -/
local macro "fold5" : tactic =>
  `(tactic| (dsimp only [W5, W4, W3, W2, W1, W0, hostOps0, hostOps0_1, hostOps0_2, hostOps0_3, hostOps0_4]; after_results; try rfl))
/-- The fold through the stretch between the first and the second pallas_call, at one buffer. -/
local macro "fold7" : tactic => `(tactic| (dsimp only [W7, hostOps1]; after_results))
/-- The fold through the stretch between the second and the third pallas_call, at one buffer. -/
local macro "fold9" : tactic => `(tactic| (dsimp only [W9, hostOps2]; after_results))
/-- The same two folds at a buffer the stretch computes through many operations: one simplifier pass. -/
local macro "fold7s" : tactic => `(tactic| (dsimp only [W7, hostOps1]; after_results_simp))
local macro "fold9s" : tactic => `(tactic| (dsimp only [W9, hostOps2]; after_results_simp))

/-! ## Entering the first pallas_call -/

theorem W5_arg0 : W5 m ρ c (Proc.devRef .tc main_arg0) = m ((c : Thread nD τ).loc main_arg0) := by
  fold5
theorem W5_arg1 : W5 m ρ c (Proc.devRef .tc main_arg1) = m ((c : Thread nD τ).loc main_arg1) := by
  fold5
theorem W5_arg2 : W5 m ρ c (Proc.devRef .tc main_arg2) = m ((c : Thread nD τ).loc main_arg2) := by
  fold5
theorem W5_arg3 : W5 m ρ c (Proc.devRef .tc main_arg3) = m ((c : Thread nD τ).loc main_arg3) := by
  fold5
theorem W5_arg4 : W5 m ρ c (Proc.devRef .tc main_arg4) = m ((c : Thread nD τ).loc main_arg4) := by
  fold5
theorem W5_arg6 : W5 m ρ c (Proc.devRef .tc main_arg6) = m ((c : Thread nD τ).loc main_arg6) := by
  fold5
theorem W5_arg9 : W5 m ρ c (Proc.devRef .tc main_arg9) = m ((c : Thread nD τ).loc main_arg9) := by
  fold5

/-- The projected matrix: the host's chain on F, the reference's own. -/
theorem W5_v7 : W5 m ρ c (Proc.devRef .tc main_v7) = val_main_v7 (F := Ideal) (m ((c : Thread nD τ).loc main_arg8)) := by
  fold5
/-- The first bias as a [1,128] row. -/
theorem W5_v8 : W5 m ρ c (Proc.devRef .tc main_v8)
    = (fun i => shapeCast S1x128 (m ((c : Thread nD τ).loc main_arg5)) shapeCasts_S128_S1x128 i) := by
  fold5
/-- The second bias as a [1,128] row. -/
theorem W5_v9 : W5 m ρ c (Proc.devRef .tc main_v9)
    = (fun i => shapeCast S1x128 (m ((c : Thread nD τ).loc main_arg7)) shapeCasts_S128_S1x128 i) := by
  fold5

/-! ## Leaving the first pallas_call -/

/-- The first product. -/
theorem W6_v10 : W6 m ρ c (Proc.devRef .tc main_v10)
    = val_main_v8 (F := Ideal) (m ((c : Thread nD τ).loc main_arg0)) (m ((c : Thread nD τ).loc main_arg4)) := by
  refine (W6_arr m ρ c 2).trans ((final0 (V5 m ρ) c).trans ?_)
  show val_main_v8 (F := Ideal) (W5 m ρ c (Proc.devRef .tc main_arg0)) (W5 m ρ c (Proc.devRef .tc main_arg4)) = _
  rw [W5_arg0, W5_arg4]
theorem W6_arg1 : W6 m ρ c (Proc.devRef .tc main_arg1) = m ((c : Thread nD τ).loc main_arg1) :=
  (W6_of_ne m ρ c main_arg1 (by decide)).trans (W5_arg1 m ρ c)
theorem W6_arg2 : W6 m ρ c (Proc.devRef .tc main_arg2) = m ((c : Thread nD τ).loc main_arg2) :=
  (W6_of_ne m ρ c main_arg2 (by decide)).trans (W5_arg2 m ρ c)
theorem W6_arg3 : W6 m ρ c (Proc.devRef .tc main_arg3) = m ((c : Thread nD τ).loc main_arg3) :=
  (W6_of_ne m ρ c main_arg3 (by decide)).trans (W5_arg3 m ρ c)
theorem W6_arg6 : W6 m ρ c (Proc.devRef .tc main_arg6) = m ((c : Thread nD τ).loc main_arg6) :=
  (W6_of_ne m ρ c main_arg6 (by decide)).trans (W5_arg6 m ρ c)
theorem W6_arg9 : W6 m ρ c (Proc.devRef .tc main_arg9) = m ((c : Thread nD τ).loc main_arg9) :=
  (W6_of_ne m ρ c main_arg9 (by decide)).trans (W5_arg9 m ρ c)

theorem W6_v7 : W6 m ρ c (Proc.devRef .tc main_v7) = val_main_v7 (F := Ideal) (m ((c : Thread nD τ).loc main_arg8)) :=
  (W6_of_ne m ρ c main_v7 (by decide)).trans (W5_v7 m ρ c)
theorem W6_v8 : W6 m ρ c (Proc.devRef .tc main_v8)
    = (fun i => shapeCast S1x128 (m ((c : Thread nD τ).loc main_arg5)) shapeCasts_S128_S1x128 i) :=
  (W6_of_ne m ρ c main_v8 (by decide)).trans (W5_v8 m ρ c)
theorem W6_v9 : W6 m ρ c (Proc.devRef .tc main_v9)
    = (fun i => shapeCast S1x128 (m ((c : Thread nD τ).loc main_arg7)) shapeCasts_S128_S1x128 i) :=
  (W6_of_ne m ρ c main_v9 (by decide)).trans (W5_v9 m ρ c)

/-! ## Entering the second pallas_call -/

set_option maxHeartbeats 4000000 in
/-- The first aggregated array: the host's gather, scaling and scatter-add of the first product, the reference's own. -/
theorem W7_v23 : W7 m ρ c (Proc.devRef .tc main_v23)
    = val_main_v21 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  fold7s
  rw [W6_arg1, W6_arg2, W6_arg3, W6_v10]
  rfl
theorem W7_arg1 : W7 m ρ c (Proc.devRef .tc main_arg1) = m ((c : Thread nD τ).loc main_arg1) := by
  fold7
  exact W6_arg1 m ρ c
theorem W7_arg2 : W7 m ρ c (Proc.devRef .tc main_arg2) = m ((c : Thread nD τ).loc main_arg2) := by
  fold7
  exact W6_arg2 m ρ c
theorem W7_arg3 : W7 m ρ c (Proc.devRef .tc main_arg3) = m ((c : Thread nD τ).loc main_arg3) := by
  fold7
  exact W6_arg3 m ρ c
theorem W7_arg6 : W7 m ρ c (Proc.devRef .tc main_arg6) = m ((c : Thread nD τ).loc main_arg6) := by
  fold7
  exact W6_arg6 m ρ c
theorem W7_arg9 : W7 m ρ c (Proc.devRef .tc main_arg9) = m ((c : Thread nD τ).loc main_arg9) := by
  fold7
  exact W6_arg9 m ρ c

theorem W7_v7 : W7 m ρ c (Proc.devRef .tc main_v7) = val_main_v7 (F := Ideal) (m ((c : Thread nD τ).loc main_arg8)) := by
  fold7
  exact W6_v7 m ρ c
theorem W7_v8 : W7 m ρ c (Proc.devRef .tc main_v8)
    = (fun i => shapeCast S1x128 (m ((c : Thread nD τ).loc main_arg5)) shapeCasts_S128_S1x128 i) := by
  fold7
  exact W6_v8 m ρ c
theorem W7_v9 : W7 m ρ c (Proc.devRef .tc main_v9)
    = (fun i => shapeCast S1x128 (m ((c : Thread nD τ).loc main_arg7)) shapeCasts_S128_S1x128 i) := by
  fold7
  exact W6_v9 m ρ c

/-! ## Leaving the second pallas_call -/

/-- A bias laid out as a [1,128] row, read at (0, k), is the bias at k. -/
theorem row_apply (x : S128.Idx → EReal) (k : Fin 128) :
    (fun i => shapeCast S1x128 x shapeCasts_S128_S1x128 i) (ix2 (0 : Fin 1) k) = x (ix1 k) :=
  shapeCast_a_1a_apply x shapeCasts_S128_S1x128 (0 : Fin 1) k

/-- The second product. -/
theorem W8_v24 : W8 m ρ c (Proc.devRef .tc main_v24)
    = val_main_v26 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (W8_arr m ρ c 3).trans ((final1 (V7 m ρ) c).trans ?_)
  show g1 (W7 m ρ c (Proc.devRef .tc main_v23)) (W7 m ρ c (Proc.devRef .tc main_v8)) (W7 m ρ c (Proc.devRef .tc main_arg6)) = _
  rw [W7_arg6]
  exact g1_eq _ _ _ _ _ _ _ _ _ (W7_v23 m ρ c) (fun k => by rw [W7_v8]; exact row_apply _ k)
theorem W8_arg1 : W8 m ρ c (Proc.devRef .tc main_arg1) = m ((c : Thread nD τ).loc main_arg1) :=
  (W8_of_ne m ρ c main_arg1 (by decide)).trans (W7_arg1 m ρ c)
theorem W8_arg2 : W8 m ρ c (Proc.devRef .tc main_arg2) = m ((c : Thread nD τ).loc main_arg2) :=
  (W8_of_ne m ρ c main_arg2 (by decide)).trans (W7_arg2 m ρ c)
theorem W8_arg3 : W8 m ρ c (Proc.devRef .tc main_arg3) = m ((c : Thread nD τ).loc main_arg3) :=
  (W8_of_ne m ρ c main_arg3 (by decide)).trans (W7_arg3 m ρ c)
theorem W8_arg9 : W8 m ρ c (Proc.devRef .tc main_arg9) = m ((c : Thread nD τ).loc main_arg9) :=
  (W8_of_ne m ρ c main_arg9 (by decide)).trans (W7_arg9 m ρ c)

theorem W8_v7 : W8 m ρ c (Proc.devRef .tc main_v7) = val_main_v7 (F := Ideal) (m ((c : Thread nD τ).loc main_arg8)) :=
  (W8_of_ne m ρ c main_v7 (by decide)).trans (W7_v7 m ρ c)
theorem W8_v9 : W8 m ρ c (Proc.devRef .tc main_v9)
    = (fun i => shapeCast S1x128 (m ((c : Thread nD τ).loc main_arg7)) shapeCasts_S128_S1x128 i) :=
  (W8_of_ne m ρ c main_v9 (by decide)).trans (W7_v9 m ρ c)

/-! ## Entering the third pallas_call -/

set_option maxHeartbeats 4000000 in
/-- The second aggregated array: the host's gather, scaling and scatter-add of the second product. -/
theorem W9_v37 : W9 m ρ c (Proc.devRef .tc main_v37)
    = val_main_v39 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  fold9s
  rw [W8_arg1, W8_arg2, W8_arg3, W8_v24]
  rfl
set_option maxHeartbeats 4000000 in
/-- The aggregated embedding: the same three operations on the embedding argument. -/
theorem W9_v50 : W9 m ρ c (Proc.devRef .tc main_v50)
    = val_main_v55 (F := Ideal) (m ((c : Thread nD τ).loc main_arg1)) (m ((c : Thread nD τ).loc main_arg2))
        (m ((c : Thread nD τ).loc main_arg3)) (m ((c : Thread nD τ).loc main_arg9)) := by
  fold9s
  rw [W8_arg1, W8_arg2, W8_arg3, W8_arg9]
  rfl
theorem W9_v7 : W9 m ρ c (Proc.devRef .tc main_v7) = val_main_v7 (F := Ideal) (m ((c : Thread nD τ).loc main_arg8)) := by
  fold9
  exact W8_v7 m ρ c
theorem W9_v9 : W9 m ρ c (Proc.devRef .tc main_v9)
    = (fun i => shapeCast S1x128 (m ((c : Thread nD τ).loc main_arg7)) shapeCasts_S128_S1x128 i) := by
  fold9
  exact W8_v9 m ρ c

/-! ## Leaving the third pallas_call -/

/-- The result buffer at the end of the run holds the reference's result, as a function of the ten argument arrays. -/
theorem W10_v51 : W10 m ρ c (Proc.devRef .tc main_v51)
    = val_main_v59 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) := by
  refine (W10_arr m ρ c 4).trans ((final2 (V9 m ρ) c).trans ?_)
  show g2 (W9 m ρ c (Proc.devRef .tc main_v50)) (W9 m ρ c (Proc.devRef .tc main_v37)) (W9 m ρ c (Proc.devRef .tc main_v9)) (W9 m ρ c (Proc.devRef .tc main_v7)) = _
  exact g2_eq _ _ _ _ _ _ _ _ _ _ _ _ _ _ (W9_v50 m ρ c) (W9_v37 m ρ c) (fun k => by rw [W9_v9]; exact row_apply _ k) (W9_v7 m ρ c)

end Cert.KernelIdeal.Hand

end
-- ==== Proof.lean ====
/-
  A two-layer graph convolution with an implicit step, against its jnp reference, over the extended reals.

  Both programs compute, from node features x, a weighted edge list (src, dst, w), weights W1, W2, biases b1, b2, a
  matrix F and an embedding e:
      W   = FᵀF, divided by (‖FᵀF‖ + ε) when that norm exceeds 1,
      s1  = A (x · W1),     s2 = A (relu (s1 + b1) · W2),     a = A e,
      out = c · (a · W) + (s2 + b2),
  where A h is the aggregation "gather rows of h at src, scale row-wise by w, scatter-add into rows dst" and c is the
  literal 0x3F733333.  The kernel program performs the three matrix products inside three pallas_calls, ten [5000,128]
  row blocks each, fusing the bias and relu into the second and the scaling and the final sum into the third; the
  projection W and the three aggregations are host operations in both programs, the same ones.  At the ideal
  instance a change of float format is the identity and a matrix product into the zero accumulator is the plain sum
  over the contracted axis, so each region's output array is, index by index, the reference's corresponding stage;
  the host stretches between the regions are the reference's own operations applied to equal arrays.  Nothing is
  rearranged: no law of arithmetic on the extended reals is used, and the precondition is never opened.

  The modules: the run with every buffer named; one module per pallas_call (its output array as a function of the
  arrays it found); the identification of the two fused regions' functions with the reference's stages; the fold of
  the buffer contents through the run; and the claims below.
-/
import proofs.«175384_j31044023616098_1_alg».proof.Defs
import proofs.«175384_j31044023616098_1_alg».proof.Proof.Gen.Kernel
import proofs.«175384_j31044023616098_1_alg».proof.Proof.Gen.Kernel.Skeleton
import proofs.«175384_j31044023616098_1_alg».proof.Proof.Gen.Kernel.Launch
import proofs.«175384_j31044023616098_1_alg».proof.Proof.Gen.Kernel.Points
import proofs.«175384_j31044023616098_1_alg».proof.Proof.Gen.Kernel.Frame
import proofs.«175384_j31044023616098_1_alg».proof.Proof.Gen.KernelIdeal
import proofs.«175384_j31044023616098_1_alg».proof.Proof.Gen.KernelIdeal.Skeleton
import proofs.«175384_j31044023616098_1_alg».proof.Proof.Gen.KernelIdeal.Launch
import proofs.«175384_j31044023616098_1_alg».proof.Proof.Gen.KernelIdeal.Points
import proofs.«175384_j31044023616098_1_alg».proof.Proof.Gen.KernelIdeal.Frame
import proofs.«175384_j31044023616098_1_alg».proof.Proof.Gen.ReferenceIdeal
import proofs.«175384_j31044023616098_1_alg».proof.Proof.Gen.ReferenceIdeal.Run
import proofs.«175384_j31044023616098_1_alg».proof.Proof.Gen.ReferenceIdeal.Read
import proofs.«175384_j31044023616098_1_alg».proof.Proof.Gen.Pre_finite_inputs
import proofs.«175384_j31044023616098_1_alg».proof.Proof.KernelRun
import proofs.«175384_j31044023616098_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel program. -/
theorem preserves : Cert.preserves_Kernel_KernelIdeal := trivial

/-- From memories agreeing on the ten arguments both programs run, and both result arrays are the reference's last
    stage of the arguments: the kernel program's by the fold of its buffer contents through its three regions, the
    reference's by its run. -/
theorem algebraic : Cert.algebraic_KernelIdeal_ReferenceIdeal := by
  intro m ρ m' ρ' _ hagree
  refine ⟨fun c => Cert.KernelIdeal.Gen.W10 m ρ c (Proc.devRef .tc Cert.KernelIdeal.main_v51),
    Cert.KernelIdeal.Hand.run_out m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v59_eq, h0, h1, h2, h3, h4, h5, h6, h7, h8, h9]
  exact (Cert.KernelIdeal.Hand.W10_v51 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
